-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x2048x2048 .f32) (main_arg1 : FVec F S2048x2048 .f32) (main_arg2 : FVec F S2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4x2048x2048 : Shape := ⟨3, ![4, 2048, 2048]⟩
abbrev S2048x2048 : Shape := ⟨2, ![2048, 2048]⟩
abbrev S2048 : Shape := ⟨1, ![2048]⟩
abbrev S8192x2048 : Shape := ⟨2, ![8192, 2048]⟩
abbrev S1x2048 : Shape := ⟨2, ![1, 2048]⟩
abbrev S512x2048 : Shape := ⟨2, ![512, 2048]⟩
abbrev S4x2048x1x2048 : Shape := ⟨4, ![4, 2048, 1, 2048]⟩

abbrev nBuf : Space → Nat
  | .hbm => 10
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S8192x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S8192x2048, .f32⟩
  | .hbm, ⟨8, _⟩ => ⟨S4x2048x2048, .f32⟩
  | .hbm, ⟨9, _⟩ => ⟨S4x2048x1x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x2048x2048_S8192x2048 : S4x2048x2048.ShapeCasts S8192x2048
  transposes_S2048x2048_S2048x2048_1_0 : S2048x2048.Transposes [1, 0] S2048x2048
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S8192x2048_S4x2048x2048 : S8192x2048.ShapeCasts S4x2048x2048
  bcast_S4x2048x2048_S4x2048x1x2048_0_1_3 : S4x2048x2048.BroadcastsInDim S4x2048x1x2048 (![0, 1, 3] : Fin 3 → Fin S4x2048x1x2048.rank)
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .f32 = 32 ∨ (Rect.block (s := S8192x2048) S512x2048.size (cc0_transform_3 i) (hinb0_3 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S1x1x2048 : Shape := ⟨3, ![1, 1, 2048]⟩
abbrev S4x2048x1x2048 : Shape := ⟨4, ![4, 2048, 1, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S4x2048x2048, .f32⟩
  | .hbm, ⟨4, _⟩ => ⟨S1x1x2048, .f32⟩
  | .hbm, ⟨5, _⟩ => ⟨S4x2048x2048, .f32⟩
  | .hbm, ⟨6, _⟩ => ⟨S4x2048x2048, .f32⟩
  | .hbm, ⟨7, _⟩ => ⟨S4x2048x1x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  bcast_S4x2048x2048_S4x2048x1x2048_0_1_3 : S4x2048x2048.BroadcastsInDim S4x2048x1x2048 (![0, 1, 3] : Fin 3 → Fin S4x2048x1x2048.rank)
  dot_S4x2048x2048_S2048x2048_S4x2048x2048_2_1_01_0_n_n_wf : DotDims.WF S4x2048x2048 S2048x2048 S4x2048x2048 [2] [1] [0, 1] [0] [] []

variable [Facts₀]

def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf

class Facts : Prop extends Facts₀ where

variable [Facts]
-- ==== Proof.Affine.lean ====
/-
  The mathematics of the certificate, stated once over the extended reals and over no program.

  The layer is an affine map applied to every row of a batch: with `x` of shape [4, 2048, 2048] (batch, position,
  feature), a weight matrix `W` of shape [2048 outputs, 2048 features] and a bias `b` of shape [2048],

      out[β, s, 0, o] = Σ_k x[β, s, k] · W[o, k] + b[o].

  The same map is written a second way, as a plain matrix product on the 8192 = 4 · 2048 flattened rows: with
  `X[r, k]` the rows, `Wt[k, o]` the transposed weights and `B[0, o]` the bias as a one-row matrix,

      rows[r, o] = Σ_k X[r, k] · Wt[k, o] + B[0, o].

  The two agree entry by entry once `X`, `Wt`, `B` are the re-laid `x`, `W`, `b` (row r = 2048 · β + s): the factors
  of every product are the same two numbers in the same order, and the sums run over the same index set, so no law of
  the extended reals beyond rewriting equal terms is used — in particular nothing needs the entries to be finite.
-/
import Idealize.ShloMosaic.PureOps.Ideal
import Idealize.ShloMosaic.Lib.ValueIdx

noncomputable section

namespace Cert.Affine

open Idealize.ShloMosaic Idealize.ShloMosaic.ValueIdx

/-- One entry of the product of the flattened rows with the transposed weights, plus the bias of its column:
    `Σ_k X[r, k] · Wt[k, o] + B[0, o]`. -/
def entry (X : (⟨2, ![8192, 2048]⟩ : Shape).Idx → EReal) (Wt : (⟨2, ![2048, 2048]⟩ : Shape).Idx → EReal)
    (B : (⟨2, ![1, 2048]⟩ : Shape).Idx → EReal) (r : Fin 8192) (o : Fin 2048) : EReal :=
  (∑ k : Fin 2048, X (ix2 r k) * Wt (ix2 k o)) + B (ix2 (0 : Fin 1) o)

/-- The affine map on the flattened rows, as one function of the three matrices. -/
def rows (X : (⟨2, ![8192, 2048]⟩ : Shape).Idx → EReal) (Wt : (⟨2, ![2048, 2048]⟩ : Shape).Idx → EReal)
    (B : (⟨2, ![1, 2048]⟩ : Shape).Idx → EReal) : (⟨2, ![8192, 2048]⟩ : Shape).Idx → EReal :=
  fun i => entry X Wt B (i 0) (i 1)

/-- The layer's result, as one function of its three arguments: `out[β, s, 0, o] = Σ_k x[β, s, k] · W[o, k] + b[o]`. -/
def out (x : (⟨3, ![4, 2048, 2048]⟩ : Shape).Idx → EReal) (W : (⟨2, ![2048, 2048]⟩ : Shape).Idx → EReal)
    (b : (⟨1, ![2048]⟩ : Shape).Idx → EReal) : (⟨4, ![4, 2048, 1, 2048]⟩ : Shape).Idx → EReal :=
  fun i => (∑ k : Fin 2048, x (ix3 (i 0) (i 1) k) * W (ix2 (i 3) k)) + b (ix1 (i 3))

/-- The flattened row of batch `β`, position `s`: row-major, `2048 · β + s`. -/
def row (β : Fin 4) (s : Fin 2048) : Fin 8192 := ⟨2048 * β.val + s.val, by omega⟩

/-- THE JOIN. If `X`, `Wt`, `B` are the re-laid arguments — row `2048 · β + s` of `X` is row `(β, s)` of `x`, `Wt` is `W`
    transposed, `B` is `b` as one row — then the matrix form's entry at that row is the layer's result at `(β, s, 0, o)`:
    term by term the same products, summed over the same `k`, plus the same bias. -/
theorem entry_eq_out (x : (⟨3, ![4, 2048, 2048]⟩ : Shape).Idx → EReal) (W : (⟨2, ![2048, 2048]⟩ : Shape).Idx → EReal)
    (b : (⟨1, ![2048]⟩ : Shape).Idx → EReal)
    (X : (⟨2, ![8192, 2048]⟩ : Shape).Idx → EReal) (Wt : (⟨2, ![2048, 2048]⟩ : Shape).Idx → EReal)
    (B : (⟨2, ![1, 2048]⟩ : Shape).Idx → EReal)
    (hX : ∀ (β : Fin 4) (s : Fin 2048) (k : Fin 2048), X (ix2 (row β s) k) = x (ix3 β s k))
    (hWt : ∀ k o : Fin 2048, Wt (ix2 k o) = W (ix2 o k))
    (hB : ∀ o : Fin 2048, B (ix2 (0 : Fin 1) o) = b (ix1 o))
    (β : Fin 4) (s : Fin 2048) (z : Fin 1) (o : Fin 2048) :
    entry X Wt B (row β s) o = out x W b (ix4 β s z o) := by
  show (∑ k : Fin 2048, X (ix2 (row β s) k) * Wt (ix2 k o)) + B (ix2 (0 : Fin 1) o)
    = (∑ k : Fin 2048, x (ix3 β s k) * W (ix2 o k)) + b (ix1 o)
  rw [hB o]
  exact congrArg (· + b (ix1 o)) (Finset.sum_congr rfl fun k _ => by rw [hX β s k, hWt k o])

end Cert.Affine

end
-- ==== Proof.RefAffine.lean ====
/-
  The reference computes the layer's result. Its program is one contraction of `x`'s feature axis against `W`'s feature
  axis (`x[β, s, ·] · W[o, ·]`, the sum over `k`), the bias broadcast along batch and position and added, and a unit axis
  inserted before the output axis. Read one operation at a time at an index `(β, s, 0, o)` this is
  `Σ_k x[β, s, k] · W[o, k] + b[o]` — the specification's `out`, literally: the operations' index maps, composed, are the
  coordinates the specification names.
-/
import proofs.«175235_j56581899157684_2_alg».proof.Proof.Gen.ReferenceIdeal.Read
import proofs.«175235_j56581899157684_2_alg».proof.Proof.Affine

noncomputable section

namespace Cert.ReferenceIdeal.RefValue

open Cert.ReferenceIdeal Cert.ReferenceIdeal.Read Idealize.ShloMosaic Idealize.ShloMosaic.ValueIdx

/-- The reference's last stage, as a function of its three arguments, is the layer's result `out`. -/
theorem val_eq_out (x : (⟨S4x2048x2048, .f32⟩ : BufTy).Contents (Elt Ideal)) (W : (⟨S2048x2048, .f32⟩ : BufTy).Contents (Elt Ideal))
    (b : (⟨S2048, .f32⟩ : BufTy).Contents (Elt Ideal)) :
    val_main_v4 (F := Ideal) x W b = Cert.Affine.out x W b := by
  funext i
  obtain ⟨β, s, z, o, rfl⟩ : ∃ (β : Fin 4) (s : Fin 2048) (z : Fin 1) (o : Fin 2048), i = ix4 β s z o :=
    ⟨i 0, i 1, i 2, i 3, eq_ix4 i⟩
  -- the contraction reads `x` at (β, s, k) and `W` at (o, k); the two broadcasts read `b` at o
  have el : ∀ k : Fin 2048, lidx_main_v0 (idx_main_v4 (ix4 β s z o)) k = ix3 β s k := fun k =>
    funext fun a => Fin.ext (by match a with | ⟨0, _⟩ => rfl | ⟨1, _⟩ => rfl | ⟨2, _⟩ => rfl)
  have er : ∀ k : Fin 2048, ridx_main_v0 (idx_main_v4 (ix4 β s z o)) k = ix2 o k := fun k =>
    funext fun a => Fin.ext (by match a with | ⟨0, _⟩ => rfl | ⟨1, _⟩ => rfl)
  have eb : idx_main_v1 (idx_main_v2 (idx_main_v4 (ix4 β s z o))) = ix1 o :=
    funext fun a => Fin.ext (by match a with | ⟨0, _⟩ => rfl)
  rw [val_main_v4_apply, val_main_v3_apply, val_main_v0_apply, val_main_v2_apply, val_main_v1_apply]
  show (∑ k : Fin 2048, x (lidx_main_v0 (idx_main_v4 (ix4 β s z o)) k) * W (ridx_main_v0 (idx_main_v4 (ix4 β s z o)) k))
      + b (idx_main_v1 (idx_main_v2 (idx_main_v4 (ix4 β s z o))))
    = (∑ k : Fin 2048, x (ix3 β s k) * W (ix2 o k)) + b (ix1 o)
  rw [eb]
  exact congrArg (· + b (ix1 o)) (Finset.sum_congr rfl fun k _ => by rw [el k, er k])

end Cert.ReferenceIdeal.RefValue

end
-- ==== Proof.StagedArrays.lean ====
/-
  The three arrays the kernel's region finds. Before the region the program re-lays its arguments, computing nothing:
  `x` [4, 2048, 2048] is flattened to 8192 rows (row-major: row `2048 · β + s` is `x[β, s, ·]`), `W` is transposed (and
  narrowed, which is the identity on extended reals), and `b` becomes a one-row matrix. So, entry by entry,

      rows[2048 · β + s, k] = x[β, s, k],     weights[k, o] = W[o, k],     bias[0, o] = b[o].
-/
import proofs.«175235_j56581899157684_2_alg».proof.Proof.Gen.KernelIdeal.Frame
import proofs.«175235_j56581899157684_2_alg».proof.Proof.Affine
import Idealize.ShloMosaic.Lib.Pipeline.Value
import Idealize.ShloMosaic.Lib.ValueIdx
import Idealize.ShloMosaic.Lib.StableHlo.Run

noncomputable section

namespace Cert.KernelIdeal.Staged

open Cert.KernelIdeal Cert.KernelIdeal.Gen Idealize.ShloMosaic Idealize.ShloMosaic.TcCoe Idealize.ShloMosaic.ValueIdx
open Idealize.SL.Sem Idealize.ShloMosaic.StableHlo
open Cert.Affine (row)

/-! ## The three re-layings, each read at an index -/

/-- Flattening batch and position: row `2048 · β + s`, column `k` of the flattened array is `x[β, s, k]` (the two
    indices have the same row-major position). -/
theorem flatten_at (x : FVec Ideal S4x2048x2048 .f32) (β : Fin 4) (s : Fin 2048) (k : Fin 2048) :
    shapeCast S8192x2048 x shapeCasts_S4x2048x2048_S8192x2048 (ix2 (row β s) k) = x (ix3 β s k) :=
  shapeCast_apply x shapeCasts_S4x2048x2048_S8192x2048 (ix2 (row β s) k) (ix3 β s k) (by
    rw [Shape.rowMajor_val_three, Shape.rowMajor_val_two]
    show (β.val * 2048 + s.val) * 2048 + k.val = (2048 * β.val + s.val) * 2048 + k.val
    omega)

/-- The transposed weights: entry `(k, o)` is `W[o, k]`. -/
theorem transposed_at (W : FVec Ideal S2048x2048 .f32) (k o : Fin 2048) :
    truncf (F := Ideal) .bf16 (transpose S2048x2048 [1, 0] W transposes_S2048x2048_S2048x2048_1_0) bitsLt_bf16_f32 (ix2 k o) = W (ix2 o k) :=
  transpose_apply [1, 0] W transposes_S2048x2048_S2048x2048_1_0 (ix2 k o) (ix2 o k) (fun a => match a with
    | ⟨0, _⟩ => rfl
    | ⟨1, _⟩ => rfl)

/-- The bias as one row: entry `(0, o)` is `b[o]`. -/
theorem one_row_at (b : FVec Ideal S2048 .f32) (o : Fin 2048) :
    shapeCast S1x2048 b shapeCasts_S2048_S1x2048 (ix2 (0 : Fin 1) o) = b (ix1 o) :=
  shapeCast_apply b shapeCasts_S2048_S1x2048 (ix2 (0 : Fin 1) o) (ix1 o) (by
    rw [Shape.rowMajor_val_one, Shape.rowMajor_val_two]
    show o.val = 0 * 2048 + o.val
    omega)

/-! ## The arrays as the region finds them -/

variable (m : (ℓ : Loc nD τ sig) → Buf (Elt Ideal) ℓ)

/-- The region's first operand is the flattened `x`. -/
theorem rows_eq (c : Dev nD) :
    (V m c main_v0 : S8192x2048.Idx → EReal)
      = shapeCast S8192x2048 (m ((c : Thread nD τ).loc main_arg0)) shapeCasts_S4x2048x2048_S8192x2048 := by
  show StableHlo.after hostOps0 (fun b => m (c, b)) (Proc.devRef .tc main_v0) = _
  after_results
  rfl

/-- Its second operand is the transposed `W`. -/
theorem weights_eq (c : Dev nD) :
    (V m c main_v2 : S2048x2048.Idx → EReal)
      = truncf (F := Ideal) .bf16 (transpose S2048x2048 [1, 0] (m ((c : Thread nD τ).loc main_arg1)) transposes_S2048x2048_S2048x2048_1_0) bitsLt_bf16_f32 := by
  show StableHlo.after hostOps0 (fun b => m (c, b)) (Proc.devRef .tc main_v2) = _
  after_results

/-- Its third operand is `b` as one row. -/
theorem bias_eq (c : Dev nD) :
    (V m c main_v3 : S1x2048.Idx → EReal)
      = shapeCast S1x2048 (m ((c : Thread nD τ).loc main_arg2)) shapeCasts_S2048_S1x2048 := by
  show StableHlo.after hostOps0 (fun b => m (c, b)) (Proc.devRef .tc main_v3) = _
  after_results
  rfl

/-- Entry by entry: the region's rows are `x`'s. -/
theorem rows_at (c : Dev nD) (β : Fin 4) (s : Fin 2048) (k : Fin 2048) :
    (V m c main_v0 : S8192x2048.Idx → EReal) (ix2 (row β s) k) = m ((c : Thread nD τ).loc main_arg0) (ix3 β s k) := by
  rw [rows_eq]
  exact flatten_at _ β s k

/-- Entry by entry: the region's weights are `W` transposed. -/
theorem weights_at (c : Dev nD) (k o : Fin 2048) :
    (V m c main_v2 : S2048x2048.Idx → EReal) (ix2 k o) = m ((c : Thread nD τ).loc main_arg1) (ix2 o k) := by
  rw [weights_eq]
  exact transposed_at _ k o

/-- Entry by entry: the region's bias row is `b`. -/
theorem bias_at (c : Dev nD) (o : Fin 2048) :
    (V m c main_v3 : S1x2048.Idx → EReal) (ix2 (0 : Fin 1) o) = m ((c : Thread nD τ).loc main_arg2) (ix1 o) := by
  rw [bias_eq]
  exact one_row_at _ o

end Cert.KernelIdeal.Staged

end
-- ==== Proof.BlockProduct.lean ====
/-
  What the kernel body stores, entry by entry. At one grid point the body holds a block `x0` of 512 flattened rows
  (all 2048 features), the whole transposed weight matrix `x1` and the bias row `x2`; it multiplies the block by the
  weights on the matrix unit into a zero accumulator and adds the bias row, broadcast down the 512 rows. The three
  shape casts are to the operands' own shapes and change nothing, and the narrowing of the block before the product is
  the identity on extended reals. So the stored value at (p, q) is

      Σ_k x0[p, k] · x1[k, q] + x2[0, q].

  The product's contraction is over its one contracted axis; that one-axis index is re-indexed to k = 0 … 2047, and the
  operand indices the dimension numbers name at output (p, q) are (p, k) and (k, q).
-/
import proofs.«175235_j56581899157684_2_alg».proof.Proof.Gen.KernelIdeal.Skeleton
import proofs.«175235_j56581899157684_2_alg».proof.Proof.Affine
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The product's operand indices at an output index -/

theorem lhs_row (j : S512x2048.Idx) (q : dot_S512x2048_S2048x2048_S512x2048_1_0_0_1_n_n.contr.Idx) :
    (dot_S512x2048_S2048x2048_S512x2048_1_0_0_1_n_n.lhsIdx j q 0).val = (j 0).val := by
  unfold DotDims.lhsIdx
  rw [dif_neg (show ¬(0 : Fin S512x2048.rank) ∈ dot_S512x2048_S2048x2048_S512x2048_1_0_0_1_n_n.lhsBatch by decide),
    dif_pos (show (0 : Fin S512x2048.rank) ∈ dot_S512x2048_S2048x2048_S512x2048_1_0_0_1_n_n.lhsNonContracting by decide)]
  rfl

theorem lhs_contr (j : S512x2048.Idx) (q : dot_S512x2048_S2048x2048_S512x2048_1_0_0_1_n_n.contr.Idx) :
    (dot_S512x2048_S2048x2048_S512x2048_1_0_0_1_n_n.lhsIdx j q 1).val = (q ⟨0, by decide⟩).val :=
  dot_S512x2048_S2048x2048_S512x2048_1_0_0_1_n_n.lhsIdx_val_of_single rfl j q

theorem rhs_contr (j : S512x2048.Idx) (q : dot_S512x2048_S2048x2048_S512x2048_1_0_0_1_n_n.contr.Idx) :
    (dot_S512x2048_S2048x2048_S512x2048_1_0_0_1_n_n.rhsIdx j q 0).val = (q ⟨0, by decide⟩).val :=
  dot_S512x2048_S2048x2048_S512x2048_1_0_0_1_n_n.rhsIdx_val_of_single rfl j q

theorem rhs_col (j : S512x2048.Idx) (q : dot_S512x2048_S2048x2048_S512x2048_1_0_0_1_n_n.contr.Idx) :
    (dot_S512x2048_S2048x2048_S512x2048_1_0_0_1_n_n.rhsIdx j q 1).val = (j 1).val := by
  unfold DotDims.rhsIdx
  rw [dif_neg (show ¬(1 : Fin S2048x2048.rank) ∈ dot_S512x2048_S2048x2048_S512x2048_1_0_0_1_n_n.rhsBatch by decide),
    dif_pos (show (1 : Fin S2048x2048.rank) ∈ dot_S512x2048_S2048x2048_S512x2048_1_0_0_1_n_n.rhsNonContracting by decide)]
  rfl

/-! ## The block product into a zero accumulator, at an entry -/

/-- `(l · r)[p, q] = Σ_k l[p, k] · r[k, q]`: the matrix unit's product into the zero accumulator is the plain sum. -/
theorem product_at (l : FVec Ideal S512x2048 .bf16) (r : FVec Ideal S2048x2048 .bf16) (p : Fin 512) (q : Fin 2048) :
    FloatOps.matmul dot_S512x2048_S2048x2048_S512x2048_1_0_0_1_n_n none l r (constant S512x2048 .f32 0x00000000#32) (ix2 p q)
      = ∑ k : Fin 2048, l (ix2 p k) * r (ix2 k q) := by
  rw [Ideal.matmul_constant_zero_apply, ← Equiv.sum_comp (contrEquiv1 dot_S512x2048_S2048x2048_S512x2048_1_0_0_1_n_n 2048 rfl rfl).symm]
  refine Finset.sum_congr rfl fun k _ => ?_
  have hk := contrEquiv1_symm_val dot_S512x2048_S2048x2048_S512x2048_1_0_0_1_n_n 2048 rfl rfl k
  have el : dot_S512x2048_S2048x2048_S512x2048_1_0_0_1_n_n.lhsIdx (ix2 p q) ((contrEquiv1 dot_S512x2048_S2048x2048_S512x2048_1_0_0_1_n_n 2048 rfl rfl).symm k) = ix2 p k :=
    funext fun a => Fin.ext (by
      match a with
      | ⟨0, _⟩ => exact lhs_row _ _
      | ⟨1, _⟩ => exact (lhs_contr _ _).trans hk)
  have er : dot_S512x2048_S2048x2048_S512x2048_1_0_0_1_n_n.rhsIdx (ix2 p q) ((contrEquiv1 dot_S512x2048_S2048x2048_S512x2048_1_0_0_1_n_n 2048 rfl rfl).symm k) = ix2 k q :=
    funext fun a => Fin.ext (by
      match a with
      | ⟨0, _⟩ => exact (rhs_contr _ _).trans hk
      | ⟨1, _⟩ => exact rhs_col _ _)
  rw [el, er]

/-! ## The bias row broadcast down the block, at an entry -/

/-- The row `B[0, ·]` broadcast to 512 rows reads `B[0, q]` at every (p, q). -/
theorem bias_at (B : FVec Ideal S1x2048 .f32) (p : Fin 512) (q : Fin 2048) :
    broadcastTo S512x2048 B broadcasts_S1x2048_S512x2048 (ix2 p q) = B (ix2 (0 : Fin 1) q) :=
  broadcastTo_apply B broadcasts_S1x2048_S512x2048 (ix2 p q) (ix2 (0 : Fin 1) q) (fun a => match a with
    | ⟨0, _⟩ => by show 0 = if (1 : Nat) = 1 then 0 else p.val; rw [if_pos rfl]
    | ⟨1, _⟩ => by show q.val = if (2048 : Nat) = 1 then 0 else q.val; rw [if_neg (by decide)])

/-! ## The stored value -/

/-- The body's one store, at entry (p, q) of the block: `Σ_k x0[p, k] · x1[k, q] + x2[0, q]`. -/
theorem stored_at (x0 : FVec Ideal S512x2048 .f32) (x1 : FVec Ideal S2048x2048 .bf16) (x2 : FVec Ideal S1x2048 .f32)
    (p : Fin 512) (q : Fin 2048) :
    k0_pay1 (F := Ideal) x0 x1 x2 (ix2 p q) = (∑ k : Fin 2048, x0 (ix2 p k) * x1 (ix2 k q)) + x2 (ix2 (0 : Fin 1) q) := by
  unfold k0_pay1
  show FloatOps.matmul dot_S512x2048_S2048x2048_S512x2048_1_0_0_1_n_n none
        (truncf .bf16 (shapeCast S512x2048 x0 shapeCasts_S512x2048_S512x2048) bitsLt_bf16_f32)
        (shapeCast S2048x2048 x1 shapeCasts_S2048x2048_S2048x2048) (constant S512x2048 .f32 0x00000000#32) (ix2 p q)
      + broadcastTo S512x2048 (shapeCast S1x2048 x2 shapeCasts_S1x2048_S1x2048) broadcasts_S1x2048_S512x2048 (ix2 p q) = _
  rw [shapeCast_self, shapeCast_self, shapeCast_self, product_at, bias_at]
  rfl

/-- The stored entry is an entry of the affine map on the flattened rows. If block row `p` of `x0` is row `r` of a
    matrix `X`, and `x1`, `x2` read a matrix `Wt` and a row `B` in place, then what the body stores at (p, q) is
    `rows X Wt B` at (r, q): the same products over the same `k`, plus the same bias entry. -/
theorem stored_is_rows (X : (⟨2, ![8192, 2048]⟩ : Shape).Idx → EReal) (Wt : (⟨2, ![2048, 2048]⟩ : Shape).Idx → EReal)
    (B : (⟨2, ![1, 2048]⟩ : Shape).Idx → EReal)
    (x0 : FVec Ideal S512x2048 .f32) (x1 : FVec Ideal S2048x2048 .bf16) (x2 : FVec Ideal S1x2048 .f32)
    (r : Fin 8192) (p : Fin 512) (q : Fin 2048)
    (h0 : ∀ k : Fin 2048, x0 (ix2 p k) = X (ix2 r k)) (h1 : ∀ k : Fin 2048, x1 (ix2 k q) = Wt (ix2 k q))
    (h2 : x2 (ix2 (0 : Fin 1) q) = B (ix2 (0 : Fin 1) q)) :
    k0_pay1 (F := Ideal) x0 x1 x2 (ix2 p q) = Cert.Affine.rows X Wt B (ix2 r q) := by
  rw [stored_at, h2]
  show _ = (∑ k : Fin 2048, X (ix2 r k) * Wt (ix2 k q)) + B (ix2 (0 : Fin 1) q)
  exact congrArg (· + B (ix2 (0 : Fin 1) q)) (Finset.sum_congr rfl fun k _ => by rw [h0 k, h1 k])

end Cert.KernelIdeal.Body

end
-- ==== Proof.RowBlocks.lean ====
/-
  From blocks to the array. The grid has 16 points; point `t` works on the 512 flattened rows `512 · t … 512 · t + 511`:
  its input block of the rows and its output block are those rows (all 2048 columns), while the weights and the bias row
  are the same whole arrays at every point. What the body stores at entry (p, q) of the output block is therefore the
  affine map's entry at row `512 · t + p`, column `q` — every output block is a block of ONE function of the three arrays
  the region finds, `rows`. The 16 output blocks tile the 8192 rows (row `r` lies in the block of point `r / 512`), so
  after the last write-back the output array is that function.
-/
import proofs.«175235_j56581899157684_2_alg».proof.Proof.Gen.KernelIdeal.Frame
import proofs.«175235_j56581899157684_2_alg».proof.Proof.Affine
import proofs.«175235_j56581899157684_2_alg».proof.Proof.BlockProduct
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- A grid point is one of 16. -/
theorem point_lt (t : Fin cfg0.N) : t.val < 16 := lt_of_lt_of_eq t.isLt N_0

/-- The flattened row that entry `p` of point `t`'s blocks sits on. -/
def blockRow (t : Fin cfg0.N) (p : Fin 512) : Fin 8192 := ⟨512 * t.val + p.val, by have := point_lt t; omega⟩

/-- The four index maps, decided over the 16 points: the rows' block and the output's block are block `t` along the
    rows and block 0 along the columns; the weights' and the bias row's block is always block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## Where each block reads its array -/

/-- Entry (p, q) of point `t`'s output block is entry (512 · t + p, q) of the output array. -/
theorem out_entry (t : Fin cfg0.N) (p : Fin 512) (q : Fin 2048) :
    ((cfg0.win 3).blk t).view.emb (ix2 p q) = ix2 (blockRow t p) q := by
  obtain ⟨-, -, -, -, -, -, e6, e7⟩ := index_facts t
  funext a; apply Fin.ext
  match a with
  | ⟨0, _⟩ => show win0_3.index t (0 : Fin 2) * 512 + 1 * p.val = 512 * t.val + p.val; omega
  | ⟨1, _⟩ => show win0_3.index t (1 : Fin 2) * 2048 + 1 * q.val = q.val; omega

/-- Entry (p, k) of point `t`'s block of the rows is entry (512 · t + p, k) of the rows. -/
theorem read_rows (c : Dev nD) (t : Fin cfg0.N) (p : Fin 512) (k : Fin 2048) :
    iblk m c 0 t (ix2 p k) = V m c main_v0 (ix2 (blockRow t p) k) := by
  obtain ⟨e0, e1, -, -, -, -, -, -⟩ := index_facts t
  show V m c main_v0 (((cfg0.win 0).blk t).view.emb (ix2 p k)) = V m c main_v0 (ix2 (blockRow t p) k)
  refine congrArg (V m c main_v0) (funext fun a => Fin.ext ?_)
  match a with
  | ⟨0, _⟩ => show win0_0.index t (0 : Fin 2) * 512 + 1 * p.val = 512 * t.val + p.val; omega
  | ⟨1, _⟩ => show win0_0.index t (1 : Fin 2) * 2048 + 1 * k.val = k.val; omega

/-- The weights' block is the whole array, at every point. -/
theorem read_weights (c : Dev nD) (t : Fin cfg0.N) (k q : Fin 2048) :
    iblk m c 1 t (ix2 k q) = V m c main_v2 (ix2 k q) := by
  obtain ⟨-, -, e2, e3, -, -, -, -⟩ := index_facts t
  show V m c main_v2 (((cfg0.win 1).blk t).view.emb (ix2 k q)) = V m c main_v2 (ix2 k q)
  refine congrArg (V m c main_v2) (funext fun a => Fin.ext ?_)
  match a with
  | ⟨0, _⟩ => show win0_1.index t (0 : Fin 2) * 2048 + 1 * k.val = k.val; omega
  | ⟨1, _⟩ => show win0_1.index t (1 : Fin 2) * 2048 + 1 * q.val = q.val; omega

/-- The bias row's block is the whole row, at every point. -/
theorem read_bias (c : Dev nD) (t : Fin cfg0.N) (q : Fin 2048) :
    iblk m c 2 t (ix2 (0 : Fin 1) q) = V m c main_v3 (ix2 (0 : Fin 1) q) := by
  obtain ⟨-, -, -, -, e4, e5, -, -⟩ := index_facts t
  show V m c main_v3 (((cfg0.win 2).blk t).view.emb (ix2 (0 : Fin 1) q)) = V m c main_v3 (ix2 (0 : Fin 1) q)
  refine congrArg (V m c main_v3) (funext fun a => Fin.ext ?_)
  match a with
  | ⟨0, _⟩ => show win0_2.index t (0 : Fin 2) * 1 + 1 * 0 = 0; omega
  | ⟨1, _⟩ => show win0_2.index t (1 : Fin 2) * 2048 + 1 * q.val = q.val; omega

/-! ## What a point writes back -/

/-- WHAT POINT `t` WRITES BACK is block `t` of the affine map on the flattened rows, of the three arrays the region finds. -/
theorem flushed_eq (c : Dev nD) (t : Fin cfg0.N) :
    (dats m 0 c).flushed 3 t
      = ((cfg0.win 3).blk t).view.read (Elt Ideal) (Cert.Affine.rows (V m c main_v0) (V m c main_v2) (V m c main_v3)) := by
  show (cfg0.win 3).cut (grid0.coords t) ((dats m 0 c).after 3 t) = _
  rw [after0_3]
  unfold out0_3
  rw [View.canon_unit_zero zero_offsets]
  simp only [View.ld_unit_zero (S := S512x2048) zero_offsets, View.ld_unit_zero (S := S2048x2048) zero_offsets,
    View.ld_unit_zero (S := S1x2048) zero_offsets]
  funext j
  obtain ⟨p, q, rfl⟩ : ∃ (p : Fin 512) (q : Fin 2048), j = ix2 p q := ⟨j 0, j 1, eq_ix2 j⟩
  show k0_pay1 (iblk m c 0 t) (iblk m c 1 t) (iblk m c 2 t) (ix2 p q)
    = Cert.Affine.rows (V m c main_v0) (V m c main_v2) (V m c main_v3) (((cfg0.win 3).blk t).view.emb (ix2 p q))
  rw [out_entry t p q]
  exact Cert.KernelIdeal.Body.stored_is_rows (V m c main_v0) (V m c main_v2) (V m c main_v3)
    (iblk m c 0 t) (iblk m c 1 t) (iblk m c 2 t) (blockRow t p) p q
    (fun k => read_rows m c t p k) (fun k => read_weights m c t k q) (read_bias m c t q)

/-! ## The blocks tile the array -/

/-- An index of the output array is in point `t`'s block iff each coordinate is in the block's range on its axis. -/
theorem mem_blk (t : Fin cfg0.N) (i : S8192x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v4).slice (win0_3.rect t)).set ↔ _
  rw [View.set_slice_whole, Rect.mem_set_unit]
  exact Iff.rfl

/-- Every index of the output array is in the block of some point that writes back: row `r` in that of point `r / 512`. -/
theorem cover (i : S8192x2048.Idx) :
    ∃ t : Fin cfg0.N, (cfg0.win 3).flush t = true ∧ i ∈ ((cfg0.win 3).blk t).view.set := by
  have hi0 : (i 0).val < 8192 := (i 0).isLt
  have hi1 : (i 1).val < 2048 := (i 1).isLt
  obtain ⟨t, ht⟩ : ∃ t : Fin cfg0.N, t.val = (i 0).val / 512 :=
    ⟨⟨(i 0).val / 512, lt_of_lt_of_eq (by omega : (i 0).val / 512 < 16) N_0.symm⟩, rfl⟩
  obtain ⟨-, -, -, -, -, -, e6, e7⟩ := index_facts t
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 2048 ≤ (i 1).val ∧ (i 1).val < win0_3.index t (1 : Fin 2) * 2048 + 2048
    omega

/-- THE OUTPUT ARRAY after the region: the affine map on the flattened rows, of the three arrays the region finds. -/
theorem final (c : Dev nD) :
    (dats m 0 c).arrAt 3 cfg0.N = Cert.Affine.rows (V m c main_v0) (V m c main_v2) (V m c main_v3) :=
  (dats m 0 c).arrAt_eq_of_cover 3 _ (fun t _ => flushed_eq m c t) cover

end Cert.KernelIdeal.Blocks

end
-- ==== Proof.KernelAffine.lean ====
/-
  The kernel program's result. After the region the program only re-lays the output array: the 8192 rows are split back
  into batch and position (row `2048 · β + s` becomes `(β, s)`), and a unit axis is inserted before the output axis. So
  the result at `(β, s, 0, o)` is the output array at `(2048 · β + s, o)`, which is the affine map on the flattened rows of
  the three arrays the region found — and those are the re-laid arguments, so by the specification's join it is

      Σ_k x[β, s, k] · W[o, k] + b[o],

  the layer's result `out` of the program's own arguments.
-/
import proofs.«175235_j56581899157684_2_alg».proof.Proof.Gen.KernelIdeal.Frame
import proofs.«175235_j56581899157684_2_alg».proof.Proof.Affine
import proofs.«175235_j56581899157684_2_alg».proof.Proof.StagedArrays
import proofs.«175235_j56581899157684_2_alg».proof.Proof.RowBlocks
import Idealize.ShloMosaic.Lib.Pipeline.Value
import Idealize.ShloMosaic.Lib.ValueIdx
import Idealize.ShloMosaic.Lib.StableHlo.Run

noncomputable section

namespace Cert.KernelIdeal.Result

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)
open Cert.Affine (row)

/-! ## The two re-layings after the region, each read at an index -/

/-- Splitting the rows back into batch and position: entry `(β, s, o)` is the matrix's entry `(2048 · β + s, o)`. -/
theorem unflatten_at (Y : FVec Ideal S8192x2048 .f32) (β : Fin 4) (s : Fin 2048) (o : Fin 2048) :
    shapeCast S4x2048x2048 Y shapeCasts_S8192x2048_S4x2048x2048 (ix3 β s o) = Y (ix2 (row β s) o) :=
  shapeCast_apply Y shapeCasts_S8192x2048_S4x2048x2048 (ix3 β s o) (ix2 (row β s) o) (by
    rw [Shape.rowMajor_val_two, Shape.rowMajor_val_three]
    show (2048 * β.val + s.val) * 2048 + o.val = (β.val * 2048 + s.val) * 2048 + o.val
    omega)

/-- The inserted unit axis: entry `(β, s, 0, o)` is the operand's entry `(β, s, o)`. -/
theorem unit_axis_at (Z : FVec Ideal S4x2048x2048 .f32) (β : Fin 4) (s : Fin 2048) (z : Fin 1) (o : Fin 2048) :
    broadcastInDim S4x2048x1x2048 ![0, 1, 3] bcast_S4x2048x2048_S4x2048x1x2048_0_1_3 Z (ix4 β s z o) = Z (ix3 β s o) :=
  broadcastInDim_apply _ bcast_S4x2048x2048_S4x2048x1x2048_0_1_3 Z (ix4 β s z o) (ix3 β s o) (fun a => match a with
    | ⟨0, _⟩ => by show β.val = if (4 : Nat) = 1 then 0 else β.val; rw [if_neg (by decide)]
    | ⟨1, _⟩ => by show s.val = if (2048 : Nat) = 1 then 0 else s.val; rw [if_neg (by decide)]
    | ⟨2, _⟩ => by show o.val = if (2048 : Nat) = 1 then 0 else o.val; rw [if_neg (by decide)])

variable (m : (ℓ : Loc nD τ sig) → Buf (Elt Ideal) ℓ) (ρ : Dev nD → PrngReg)

/-! ## The program's result -/

/-- What the lines after the region leave in the result: the region's output array, split back and given its unit axis. -/
theorem tail_eq (c : Dev nD) :
    Pipeline.afterTail₀ cfgs (dats m) 0 (V0 m) [hostOps1] c main_v6
      = broadcastInDim S4x2048x1x2048 ![0, 1, 3] bcast_S4x2048x2048_S4x2048x1x2048_0_1_3
          (shapeCast S4x2048x2048 ((dats m 0 c).arrAt 3 cfg0.N) shapeCasts_S8192x2048_S4x2048x2048) := by
  have e : (Pipeline.withArrays (cfgs 0).spec c (V0 m c) (fun w => (dats m 0 c).arrAt w (cfgs 0).N) (Proc.devRef .tc main_v4)
        : S8192x2048.Idx → EReal) = (dats m 0 c).arrAt 3 cfg0.N :=
    Pipeline.withArrays_arr spec0 launch0.win.arr_inj c (V0 m c) _ 3
  unfold Pipeline.afterTail₀
  show StableHlo.after hostOps1 _ (Proc.devRef .tc main_v6) = _
  after_results
  rw [e]
  rfl

/-- THE RESULT is the layer's result of the program's own arguments. -/
theorem result_eq (c : Dev nD) :
    Pipeline.afterTail₀ cfgs (dats m) 0 (V0 m) [hostOps1] c main_v6
      = Cert.Affine.out (m ((c : Thread nD τ).loc main_arg0)) (m ((c : Thread nD τ).loc main_arg1)) (m ((c : Thread nD τ).loc main_arg2)) := by
  rw [tail_eq, Cert.KernelIdeal.Blocks.final]
  funext i
  obtain ⟨β, s, z, o, rfl⟩ : ∃ (β : Fin 4) (s : Fin 2048) (z : Fin 1) (o : Fin 2048), i = ix4 β s z o :=
    ⟨i 0, i 1, i 2, i 3, eq_ix4 i⟩
  refine (unit_axis_at _ β s z o).trans ((unflatten_at _ β s o).trans ?_)
  exact Cert.Affine.entry_eq_out _ _ _ _ _ _ (Cert.KernelIdeal.Staged.rows_at m c) (Cert.KernelIdeal.Staged.weights_at m c)
    (Cert.KernelIdeal.Staged.bias_at m c) β s z o

/-- The kernel program's run, with its result named: every weakly fair execution terminates, nothing faulting, the result
    array at the layer's result of the arguments and the arguments unchanged. -/
theorem run : θ_run defs (onTc (τ := τ) (main (F := Ideal))) ⟨m, fun _ => 0, ρ⟩ fun r => ∀ c : Dev nD,
      r.2.mem ((c : Thread nD τ).loc main_v6)
        = Cert.Affine.out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.lean ====
/-
  A linear layer, certified equal to its reference on the extended reals.

  Both programs compute, for `x` of shape [4, 2048, 2048], weights `W` [2048, 2048] and bias `b` [2048],

      out[β, s, 0, o] = Σ_k x[β, s, k] · W[o, k] + b[o].

  The reference contracts `x`'s feature axis against `W`'s, adds the broadcast bias and inserts a unit axis
  (Proof/RefAffine.lean). The kernel program flattens batch and position into 8192 rows, transposes `W`, and runs a grid
  of 16 points, each multiplying a block of 512 rows by the whole transposed matrix into a zero accumulator and adding the
  bias row; it then splits the rows back and inserts the unit axis. Each block it writes is a block of one function of
  the arrays (Proof/BlockProduct.lean, Proof/RowBlocks.lean), the blocks tile the rows, and the re-layings before and
  after the region are read entry by entry (Proof/StagedArrays.lean, Proof/KernelAffine.lean). The two sides are then the
  same sum of the same products plus the same bias entry (Proof/Affine.lean): no algebraic law that could fail at an
  infinity is used, so the finiteness of the inputs is never called on.

  The narrowing of the matrix product's operands is the identity on extended reals and the idealization rewrote no
  operation, so the kernel's idealization is its own text and that conjunct is trivial. The three frame conjuncts are the
  generated frame runs (for the reference, its generated run with the result dropped).
-/
import proofs.«175235_j56581899157684_2_alg».proof.Defs
import proofs.«175235_j56581899157684_2_alg».proof.Proof.Gen.Kernel
import proofs.«175235_j56581899157684_2_alg».proof.Proof.Gen.Kernel.Skeleton
import proofs.«175235_j56581899157684_2_alg».proof.Proof.Gen.Kernel.Launch
import proofs.«175235_j56581899157684_2_alg».proof.Proof.Gen.Kernel.Points
import proofs.«175235_j56581899157684_2_alg».proof.Proof.Gen.Kernel.Frame
import proofs.«175235_j56581899157684_2_alg».proof.Proof.Gen.KernelIdeal
import proofs.«175235_j56581899157684_2_alg».proof.Proof.Gen.KernelIdeal.Skeleton
import proofs.«175235_j56581899157684_2_alg».proof.Proof.Gen.KernelIdeal.Launch
import proofs.«175235_j56581899157684_2_alg».proof.Proof.Gen.KernelIdeal.Points
import proofs.«175235_j56581899157684_2_alg».proof.Proof.Gen.KernelIdeal.Frame
import proofs.«175235_j56581899157684_2_alg».proof.Proof.Gen.ReferenceIdeal
import proofs.«175235_j56581899157684_2_alg».proof.Proof.Gen.ReferenceIdeal.Run
import proofs.«175235_j56581899157684_2_alg».proof.Proof.Gen.ReferenceIdeal.Read
import proofs.«175235_j56581899157684_2_alg».proof.Proof.Gen.Pre_finite_inputs
import proofs.«175235_j56581899157684_2_alg».proof.Proof.Affine
import proofs.«175235_j56581899157684_2_alg».proof.Proof.RefAffine
import proofs.«175235_j56581899157684_2_alg».proof.Proof.KernelAffine
import Idealize.ShloMosaic.Adequacy
import Idealize.ShloMosaic.Init

noncomputable section

namespace Cert.Proof

open Idealize.ShloMosaic Idealize.ShloMosaic.TcCoe Idealize.SL.Sem

/-- The word-level kernel program runs and keeps its arguments: its generated frame run. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference runs and keeps its arguments: its run, with the result's clause dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on `x`, `W`, `b`, both idealized programs end with the result array at the layer's result
    `out` of those arguments: the kernel program by its run read through blocks and re-layings, the reference by its run
    read one operation at a time. -/
theorem algebraic : Cert.algebraic_KernelIdeal_ReferenceIdeal := by
  intro m ρ m' ρ' _ hagree
  refine ⟨fun c => Cert.Affine.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.ReferenceIdeal.RefValue.val_eq_out,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
